-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S800000 32) (main_arg2 : IVec S800000 32) (main_arg3 : FVec F S256x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S800000 : Shape := ⟨1, ![800000]⟩
abbrev S256x128 : Shape := ⟨2, ![256, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x128 : Shape := ⟨2, ![128, 128]⟩
abbrev S1x128 : Shape := ⟨2, ![1, 128]⟩
abbrev S2000x128 : Shape := ⟨2, ![2000, 128]⟩
abbrev S2000x1 : Shape := ⟨2, ![2000, 1]⟩

abbrev nBuf : Space → Nat
  | .hbm => 31
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S256x128, .f32⟩
  | .hbm, ⟨4, _⟩ => ⟨S128, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S50000x1, .f32⟩
  | .hbm, ⟨25, _⟩ => ⟨S128x128, .f32⟩
  | .hbm, ⟨26, _⟩ => ⟨S128x128, .bf16⟩
  | .hbm, ⟨27, _⟩ => ⟨S128x128, .f32⟩
  | .hbm, ⟨28, _⟩ => ⟨S128x128, .bf16⟩
  | .hbm, ⟨29, _⟩ => ⟨S1x128, .f32⟩
  | .hbm, ⟨30, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  slices_S256x128_S128x128_0_0 : S256x128.Slices ![0, 0] S128x128
  bitsLt_bf16_f32 : FTy.bits .bf16 < FTy.bits .f32
  slices_S256x128_S128x128_128_0 : S256x128.Slices ![128, 0] S128x128
  shapeCasts_S128_S1x128 : S128.ShapeCasts S1x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S256x128 : Shape := ⟨2, ![256, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x128 : Shape := ⟨2, ![1, 128]⟩

abbrev nBuf : Space → Nat
  | .hbm => 35
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S256x128, .f32⟩
  | .hbm, ⟨4, _⟩ => ⟨S128, .f32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x128, .f32⟩
  | .hbm, ⟨14, _⟩ => ⟨S_, .f32⟩
  | .hbm, ⟨15, _⟩ => ⟨S50000x128, .f32⟩
  | .hbm, ⟨16, _⟩ => ⟨S800000x1, .i32⟩
  | .hbm, ⟨17, _⟩ => ⟨S50000x128, .f32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S50000x128, .f32⟩
  | .hbm, ⟨30, _⟩ => ⟨S50000x256, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  One layer of neighbourhood averaging followed by a linear map, as a function of its five inputs.

  For a node n and an output column j the layer returns

      Σ_{k<128} feat(n,k) · W(k,j)  +  Σ_{k<128} (msg(n,k) / max(deg(n), 1)) · W(128+k, j)  +  b(j),

  where msg(n,·) is the sum of the feature rows of n's in-neighbours and deg(n) their number.  Both programs compute
  msg and deg by the same host operations, so here they are two more arrays.

  The same number is written in two arrangements.  One contracts the 256 columns of the row (feat(n,·), h(n,·)),
  h = msg / max(deg, 1), against the 256 rows of W in a single sum.  The other keeps the two halves apart: W is cut
  into its upper and lower 128 rows, deg is a column, b a row.  They agree because a sum over 256 positions is the sum
  over the first 128 plus the sum over the last 128 — a law of any commutative addition, so no input needs to be
  finite.
-/
import Idealize.ShloMosaic.Lib.ValueIdx
import Idealize.ShloMosaic.PureOps.Ideal

noncomputable section

namespace Cert.Sage

open Idealize.ShloMosaic Idealize.ShloMosaic.ValueIdx

/-- Position k of the upper half of the 256 rows of W. -/
abbrev upper (k : Fin 128) : Fin 256 := ⟨k.val, by omega⟩

/-- Position k of the lower half: row 128 + k. -/
abbrev lower (k : Fin 128) : Fin 256 := ⟨128 + k.val, by omega⟩

/-- The number 1 as both programs spell it. -/
abbrev one : EReal := Ideal.ofBits .f32 0x3F800000#32

/-- A SUM OVER 256 POSITIONS IS THE SUM OVER ITS TWO HALVES, in any commutative additive monoid. -/
theorem sum_halves {M : Type} [AddCommMonoid M] (f : Fin 256 → M) :
    ∑ k : Fin 256, f k = ∑ k : Fin 128, f (upper k) + ∑ k : Fin 128, f (lower k) :=
  Fin.sum_univ_add (a := 128) (b := 128) (fun k : Fin (128 + 128) => f k)

section
variable (feat msg : (⟨2, ![50000, 128]⟩ : Shape).Idx → EReal) (deg : (⟨1, ![50000]⟩ : Shape).Idx → EReal)
  (W : (⟨2, ![256, 128]⟩ : Shape).Idx → EReal) (b : (⟨1, ![128]⟩ : Shape).Idx → EReal)
  (degCol : (⟨2, ![50000, 1]⟩ : Shape).Idx → EReal) (Wu Wl : (⟨2, ![128, 128]⟩ : Shape).Idx → EReal)
  (bRow : (⟨2, ![1, 128]⟩ : Shape).Idx → EReal)

/-- ENTRY (n, j) OF THE LAYER from the features, the summed messages, the in-degrees, the weights and the bias. -/
def entry (n : Fin 50000) (j : Fin 128) : EReal :=
  (∑ k : Fin 128, feat (ix2 n k) * W (ix2 (upper k) j)
    + ∑ k : Fin 128, Ideal.div (msg (ix2 n k)) (max (deg (ix1 n)) one) * W (ix2 (lower k) j))
  + b (ix1 j)

/-- THE LAYER, every entry. -/
def layer : (⟨2, ![50000, 128]⟩ : Shape).Idx → EReal := fun i => entry feat msg deg W b (i 0) (i 1)

/-- The same entry over the ARRANGED inputs: the two halves Wu, Wl of the weights as matrices of their own, the
    degrees as a column, the bias as a row. -/
def entryHalves (n : Fin 50000) (j : Fin 128) : EReal :=
  (∑ k : Fin 128, feat (ix2 n k) * Wu (ix2 k j)
    + ∑ k : Fin 128, Ideal.div (msg (ix2 n k)) (max (degCol (ix2 n 0)) one) * Wl (ix2 k j))
  + bRow (ix2 0 j)

/-- The layer over the arranged inputs, every entry. -/
def layerHalves : (⟨2, ![50000, 128]⟩ : Shape).Idx → EReal :=
  fun i => entryHalves feat msg degCol Wu Wl bRow (i 0) (i 1)

/-- The arranged inputs, read entry by entry as the plain ones, give the same entry: the column of degrees at
    (n, 0) is the degree of n, row k of the upper (lower) half is row k (128 + k) of W, the bias row at (0, j) is b(j). -/
theorem entryHalves_eq (hdeg : ∀ n : Fin 50000, degCol (ix2 n 0) = deg (ix1 n))
    (hu : ∀ (k : Fin 128) (j : Fin 128), Wu (ix2 k j) = W (ix2 (upper k) j))
    (hl : ∀ (k : Fin 128) (j : Fin 128), Wl (ix2 k j) = W (ix2 (lower k) j))
    (hb : ∀ j : Fin 128, bRow (ix2 0 j) = b (ix1 j)) (n : Fin 50000) (j : Fin 128) :
    entryHalves feat msg degCol Wu Wl bRow n j = entry feat msg deg W b n j := by
  unfold entryHalves entry
  rw [hdeg, hb]
  simp only [hu, hl]

/-- So they give the same layer. -/
theorem layerHalves_eq (hdeg : ∀ n : Fin 50000, degCol (ix2 n 0) = deg (ix1 n))
    (hu : ∀ (k : Fin 128) (j : Fin 128), Wu (ix2 k j) = W (ix2 (upper k) j))
    (hl : ∀ (k : Fin 128) (j : Fin 128), Wl (ix2 k j) = W (ix2 (lower k) j))
    (hb : ∀ j : Fin 128, bRow (ix2 0 j) = b (ix1 j)) :
    layerHalves feat msg degCol Wu Wl bRow = layer feat msg deg W b :=
  funext fun i => entryHalves_eq feat msg deg W b degCol Wu Wl bRow hdeg hu hl hb (i 0) (i 1)

/-- THE ONE-SUM ARRANGEMENT: contracting the joined row (feat(n,·), h(n,·)) against all 256 rows of W, plus the bias, is
    the layer's entry.  `row` is the joined row read at a position of either half. -/
theorem joined_eq (n : Fin 50000) (j : Fin 128) (row : Fin 256 → EReal)
    (hup : ∀ k : Fin 128, row (upper k) = feat (ix2 n k))
    (hlo : ∀ k : Fin 128, row (lower k) = Ideal.div (msg (ix2 n k)) (max (deg (ix1 n)) one)) :
    (∑ k : Fin 256, row k * W (ix2 k j)) + b (ix1 j) = entry feat msg deg W b n j := by
  rw [sum_halves]
  simp only [hup, hlo]
  rfl

end

end Cert.Sage

end
-- ==== Proof.RefSide.lean ====
/-
  The reference's result, entry by entry, is the layer.

  The reference divides the summed messages by max(deg, 1) spread along each row, joins the features and that quotient
  side by side into rows of 256, contracts those rows against all 256 rows of W in one product, and adds the bias
  spread down the columns.  Read at entry (n, j): position k of the upper half of the joined row is feat(n, k), position
  k of the lower half is msg(n, k) / max(deg(n), 1), the right factor is W(k, j), the bias is b(j).  That is the one-sum
  arrangement of the layer.
-/
import proofs.«113068_j14224931684660_1_alg».proof.Proof.Gen.ReferenceIdeal.Read
import proofs.«113068_j14224931684660_1_alg».proof.Proof.Spec

noncomputable section

namespace Cert.ReferenceIdeal.RefValue

open Cert.ReferenceIdeal Cert.ReferenceIdeal.Read Idealize.ShloMosaic Idealize.ShloMosaic.ValueIdx Cert.Sage

variable (x0 : (⟨S50000x128, .f32⟩ : BufTy).Contents (Elt Ideal)) (x1 x2 : (⟨S800000, .i32⟩ : BufTy).Contents (Elt Ideal))
  (x3 : (⟨S256x128, .f32⟩ : BufTy).Contents (Elt Ideal)) (x4 : (⟨S128, .f32⟩ : BufTy).Contents (Elt Ideal))

/-- The right factor of the product at entry (n, j) and position k is W(k, j). -/
theorem right_factor (n : Fin 50000) (j : Fin 128) (k : Fin 256) : ridx_main_v20 (ix2 n j) k = ix2 k j :=
  funext fun a => Fin.ext (by
    match a with
    | ⟨0, _⟩ => rfl
    | ⟨1, _⟩ => rfl)

/-- THE UPPER HALF OF THE JOINED ROW is the feature row: position k of row n is feat(n, k). -/
theorem joined_upper (n : Fin 50000) (j : Fin 128) (k : Fin 128) :
    val_main_v19 (F := Ideal) x0 x1 x2 (lidx_main_v20 (ix2 n j) (upper k)) = x0 (ix2 n k) := by
  unfold val_main_v19
  exact concatenate_pair_apply_left (t := S50000x256) (s₁ := S50000x128) (s₂ := S50000x128) (1 : Fin 2) x0 _ _ _ rfl (ix2 n k)
    (fun b => by
      match b with
      | ⟨0, _⟩ => rfl
      | ⟨1, _⟩ => rfl)

/-- THE LOWER HALF OF THE JOINED ROW is the averaged messages: position 128 + k of row n is msg(n, k) / max(deg(n), 1),
    the degree of n spread along the row. -/
theorem joined_lower (n : Fin 50000) (j : Fin 128) (k : Fin 128) :
    val_main_v19 (F := Ideal) x0 x1 x2 (lidx_main_v20 (ix2 n j) (lower k))
      = Ideal.div (val_main_v9 (F := Ideal) x0 x1 x2 (ix2 n k)) (max (val_main_v13 (F := Ideal) x2 (ix1 n)) one) := by
  unfold val_main_v19
  refine (concatenate_pair_apply_right (t := S50000x256) (s₁ := S50000x128) (s₂ := S50000x128) (1 : Fin 2) x0 _ _ _ rfl rfl
    (ix2 n k) (fun b hb => ?_) ?_).trans ?_
  · match b with
    | ⟨0, _⟩ => rfl
    | ⟨1, _⟩ => exact absurd (Fin.ext rfl) hb
  · show k.val + 128 = 128 + k.val
    omega
  · rw [val_main_v18_apply, val_main_v17_apply, val_main_v16_apply, val_main_v15_apply, val_main_v14_apply,
      val_main_cst_3_apply]
    have e : idx_main_v16 (idx_main_v17 (ix2 n k)) = ix1 n := funext fun a => Fin.ext (by
      match a with
      | ⟨0, _⟩ => rfl)
    rw [e]
    rfl

/-- THE REFERENCE'S RESULT IS THE LAYER of the features, of the messages and degrees its own host operations computed,
    of the weights and of the bias. -/
theorem result_eq :
    val_main_v23 (F := Ideal) x0 x1 x2 x3 x4
      = layer x0 (val_main_v9 (F := Ideal) x0 x1 x2) (val_main_v13 (F := Ideal) x2) x3 x4 := by
  funext i
  obtain ⟨n, j, rfl⟩ : ∃ (n : Fin 50000) (j : Fin 128), i = ix2 n j := ⟨i 0, i 1, eq_ix2 i⟩
  refine Eq.trans ?_ (joined_eq x0 (val_main_v9 (F := Ideal) x0 x1 x2) (val_main_v13 (F := Ideal) x2) x3 x4 n j
    (fun k' => val_main_v19 (F := Ideal) x0 x1 x2 (lidx_main_v20 (ix2 n j) k'))
    (joined_upper x0 x1 x2 n j) (joined_lower x0 x1 x2 n j))
  rw [val_main_v23_apply, val_main_v20_apply, val_main_v22_apply, val_main_v21_apply]
  refine congrArg₂ (· + ·) (Finset.sum_congr rfl fun k' _ => ?_) ?_
  · rw [right_factor]
  · exact congrArg x4 (funext fun a => Fin.ext (by
      match a with
      | ⟨0, _⟩ => rfl))

end Cert.ReferenceIdeal.RefValue

end
-- ==== Proof.LibRows.lean ====
/-
  `stablehlo.gather` of whole rows of a matrix, and of single elements of a flat array, read at an index.

  What `x[idx]` lowers to when `x : [N, C]` is a matrix and `idx : [R, 1]` a column of integer row numbers: a gather with
  offset_dims `[1]`, collapsed_slice_dims `[0]`, start_index_map `[0]`, index_vector_dim 1 and slice_sizes `[1, C]`.
  Result element `(r, c)` is `x` at row `idx[r, 0]` — read as a signed integer and clamped into `[0, N − 1]`, as
  StableHLO's gather clamps every start index — and column `c`. The same with a flat operand `x : [N]` (offset_dims
  `[]`, slice_sizes `[1]`): result element `r` is `x` at the clamped `idx[r, 0]`.
-/
import Idealize.ShloMosaic.Lib.ValueIdx

namespace Cert.LibRows

open Idealize.ShloMosaic Idealize.ShloMosaic.ValueIdx

section Rows
variable {α : Type}

/-- The dimension numbers of a gather of whole rows: operand `[N, C]`, start indices `[R, 1]`, result `[R, C]`; the
    result's axis 1 is the offset axis (it runs along a row), the operand's axis 0 is collapsed and is the one the start
    index names. Their conditions `wf` are decided on a program's literal shapes. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]` (read signed and clamped into `[0, N − 1]`) and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowsDims N R C wf) x idx y
      = x (ix2 ⟨min (idx (ix2 (y 0) 0)).toInt.toNat (N - 1), by omega⟩ (y 1)) := by
  unfold Host.gather
  congr 1
  funext a
  refine Fin.ext ?_
  show (rowsDims N R C wf).start y idx a + (rowsDims N R C wf).batchCoord y a + (rowsDims N R C wf).offCoord y a = _
  rw [GatherDims.batchCoord_eq_zero _ _ _ List.not_mem_nil]
  simp only [Nat.add_zero]
  -- the collapsed axis: the clamped start index, no offset
  have h0 : (rowsDims N R C wf).start y idx (0 : Fin 2) + (rowsDims N R C wf).offCoord y (0 : Fin 2)
      = min (idx (ix2 (y 0) 0)).toInt.toNat (N - 1) := by
    rw [GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx y ⟨List.idxOf (0 : Fin 2) (rowsDims N R C wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  -- the offset axis: start 0, the result's own column
  have h1 : (rowsDims N R C wf).start y idx (1 : Fin 2) + (rowsDims N R C wf).offCoord y (1 : Fin 2)
      = (y 1).val := by
    have hne : ¬ ((1 : Fin 2) = 0) := by decide
    have hstart : (rowsDims N R C wf).start y idx (1 : Fin 2) = 0 := by
      unfold GatherDims.start
      rw [dif_neg (fun h => hne (List.mem_singleton.mp h))]
    have hkept : (1 : Fin 2) ∈ (rowsDims N R C wf).sKept :=
      (GatherDims.mem_sKept _ _).mpr ⟨fun h => hne (List.mem_singleton.mp h), List.not_mem_nil⟩
    have hoff : (rowsDims N R C wf).offCoord y (1 : Fin 2) = (y 1).val := by
      unfold GatherDims.offCoord
      rw [dif_pos hkept]
      rfl
    rw [hstart, hoff, Nat.zero_add]
  match a with
  | ⟨0, _⟩ => exact h0
  | ⟨1, _⟩ => exact h1

/-- The same read with the result index given by its coordinates `(r, c)`. -/
theorem gather_rows_apply_ix2 {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N R C wf) x idx (ix2 r c)
      = x (ix2 ⟨min (idx (ix2 r 0)).toInt.toNat (N - 1), by omega⟩ c) :=
  gather_rows_apply hN wf x idx (ix2 r c)

end Rows

section Take1
variable {α : Type}

/-- The dimension numbers of a gather of single elements of a flat array: operand `[N]`, start indices `[R, 1]`, result
    `[R]`; no offset axis, the operand's only axis is collapsed and is the one the start index names. -/
abbrev take1Dims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ELEMENT GATHER READ AT `r`: the operand at `idx[r, 0]`, read signed and clamped into `[0, N − 1]`. -/
theorem gather_take1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (take1Dims N R wf) x idx y
      = x (ix1 ⟨min (idx (ix2 (y 0) 0)).toInt.toNat (N - 1), by omega⟩) := by
  unfold Host.gather
  congr 1
  funext a
  obtain rfl : a = 0 := Subsingleton.elim _ _
  refine Fin.ext ?_
  show (take1Dims N R wf).start y idx 0 + (take1Dims N R wf).batchCoord y 0 + (take1Dims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N R wf).startIndexMap from List.mem_singleton.mpr rfl)]
  have hsi : (take1Dims N R wf).siIdx y ⟨List.idxOf (0 : Fin 1) (take1Dims N R wf).startIndexMap,
      List.idxOf_lt_length_iff.2 (List.mem_singleton.mpr rfl)⟩ = ix2 (y 0) 0 := by
    funext b; refine Fin.ext ?_
    match b with
    | ⟨0, _⟩ => rfl
    | ⟨1, _⟩ => rfl
  rw [hsi]
  rfl

/-- The same read with the result index given by its coordinate `r`. -/
theorem gather_take1_apply_ix1 {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (take1Dims N R wf) x idx (ix1 r)
      = x (ix1 ⟨min (idx (ix2 r 0)).toInt.toNat (N - 1), by omega⟩) :=
  gather_take1_apply hN wf x idx (ix1 r)

end Take1

end Cert.LibRows
-- ==== Proof.LibLayout.lean ====
/-
  Small layout operations read at an index, and the gather of rows under a row-wise map.

  A reshape keeps the elements in row-major order, so a vector `[n]` reshaped to a single row `[1, n]` or to a single
  column `[n, 1]` (and back) reads the same element at the matching position; a broadcast along a new unit axis does the
  same. A unit-stride slice reads the operand at the index shifted by the offsets: the row blocks `0–63`, `64–127`, `128`
  and `129` of a `130 × 64` matrix, and the first half of a flat array. Gathering whole rows commutes with any map that
  acts on each row separately, because the gathered row is a row of the operand.
-/
import Idealize.ShloMosaic.Lib.ValueIdx
import Idealize.ShloMosaic.Lib.Pipeline.Value
import proofs.«113068_j14224931684660_1_alg».proof.Proof.LibRows

namespace Cert.LibLayout

open Idealize.ShloMosaic Idealize.ShloMosaic.ValueIdx Cert.LibRows

/-! ## Gathering rows commutes with a row-wise map -/

section RowsMap
variable {α β : Type}

/-- GATHERING ROWS COMMUTES WITH A ROW-WISE MAP: if every row of the operand is the image under `f` of the matching row of
    `x`, then every gathered row is the image under `f` of the matching gathered row of `x`. -/
theorem gather_rows_map {N R C D w : Nat} (hN : 0 < N)
    (wfC : GatherDims.WF ⟨2, ![N, C]⟩ ⟨2, ![R, 1]⟩ ⟨2, ![R, C]⟩ [1] [0] [] [0] [] 1 ![1, C])
    (wfD : GatherDims.WF ⟨2, ![N, D]⟩ ⟨2, ![R, 1]⟩ ⟨2, ![R, D]⟩ [1] [0] [] [0] [] 1 ![1, D])
    (f : (Fin C → α) → Fin D → β) (x : (⟨2, ![N, C]⟩ : Shape).Idx → α) (idx : IVec ⟨2, ![R, 1]⟩ w) :
    Host.gather (rowsDims N R D wfD) (fun i => f (fun k => x (ix2 (i 0) k)) (i 1)) idx
      = fun y => f (fun k => Host.gather (rowsDims N R C wfC) x idx (ix2 (y 0) k)) (y 1) := by
  funext y
  obtain ⟨r, q, rfl⟩ : ∃ r q, y = ix2 r q := ⟨y 0, y 1, eq_ix2 y⟩
  show Host.gather (rowsDims N R D wfD) (fun i => f (fun k => x (ix2 (i 0) k)) (i 1)) idx (ix2 r q)
      = f (fun k => Host.gather (rowsDims N R C wfC) x idx (ix2 r k)) q
  rw [gather_rows_apply_ix2 hN wfD,
    show (fun k => Host.gather (rowsDims N R C wfC) x idx (ix2 r k))
        = fun k => x (ix2 ⟨min (idx (ix2 r 0)).toInt.toNat (N - 1), by omega⟩ k)
      from funext fun k => gather_rows_apply_ix2 hN wfC x idx r k]
  rfl

end RowsMap

/-! ## Reshapes and broadcasts between a vector, a single row and a single column -/

section Reshape
variable {α : Type}

/-- A vector `[n]` reshaped to a single row `[1, n]`, read at `(0, j)`, is the vector at `j`. -/
theorem shapeCast_row_apply {n : Nat} (x : (⟨1, ![n]⟩ : Shape).Idx → α)
    (h : (⟨1, ![n]⟩ : Shape).ShapeCasts ⟨2, ![1, n]⟩) (j : Fin n) :
    shapeCast ⟨2, ![1, n]⟩ x h (ix2 0 j) = x (ix1 j) := by
  refine shapeCast_apply x h _ _ ?_
  rw [Shape.rowMajor_val_one, Shape.rowMajor_val_two]
  show j.val = 0 * n + j.val
  omega

/-- A vector `[n]` broadcast to a single row `[1, n]` (its axis sent to axis 1), read at `(0, j)`, is the vector at
    `j`. -/
theorem broadcastInDim_row_apply {n : Nat} (x : (⟨1, ![n]⟩ : Shape).Idx → α)
    (h : (⟨1, ![n]⟩ : Shape).BroadcastsInDim ⟨2, ![1, n]⟩ ![1]) (j : Fin n) :
    broadcastInDim ⟨2, ![1, n]⟩ ![1] h x (ix2 0 j) = x (ix1 j) := by
  refine broadcastInDim_apply _ h x _ _ (fun a => ?_)
  obtain rfl : a = 0 := Subsingleton.elim _ _
  show j.val = if n = 1 then 0 else j.val
  have := j.isLt
  split <;> omega

/-- A vector `[r]` reshaped to a single column `[r, 1]`, read at `(e, 0)`, is the vector at `e`. -/
theorem shapeCast_col_apply {r : Nat} (x : (⟨1, ![r]⟩ : Shape).Idx → α)
    (h : (⟨1, ![r]⟩ : Shape).ShapeCasts ⟨2, ![r, 1]⟩) (e : Fin r) :
    shapeCast ⟨2, ![r, 1]⟩ x h (ix2 e 0) = x (ix1 e) := by
  refine shapeCast_apply x h _ _ ?_
  rw [Shape.rowMajor_val_one, Shape.rowMajor_val_two]
  show e.val = e.val * 1 + 0
  omega

/-- A vector `[r]` broadcast to a single column `[r, 1]` (its axis sent to axis 0), read at `(e, 0)`, is the vector at
    `e`. -/
theorem broadcastInDim_col_apply {r : Nat} (x : (⟨1, ![r]⟩ : Shape).Idx → α)
    (h : (⟨1, ![r]⟩ : Shape).BroadcastsInDim ⟨2, ![r, 1]⟩ ![0]) (e : Fin r) :
    broadcastInDim ⟨2, ![r, 1]⟩ ![0] h x (ix2 e 0) = x (ix1 e) := by
  refine broadcastInDim_apply _ h x _ _ (fun a => ?_)
  obtain rfl : a = 0 := Subsingleton.elim _ _
  show e.val = if r = 1 then 0 else e.val
  have := e.isLt
  split <;> omega

/-- A single row `[1, n]` reshaped to a vector `[n]`, read at `j`, is the row at `(0, j)`. -/
theorem shapeCast_unrow_apply {n : Nat} (x : (⟨2, ![1, n]⟩ : Shape).Idx → α)
    (h : (⟨2, ![1, n]⟩ : Shape).ShapeCasts ⟨1, ![n]⟩) (j : Fin n) :
    shapeCast ⟨1, ![n]⟩ x h (ix1 j) = x (ix2 0 j) := by
  refine shapeCast_apply x h _ _ ?_
  rw [Shape.rowMajor_val_one, Shape.rowMajor_val_two]
  show 0 * n + j.val = j.val
  omega

/-- A single column `[r, 1]` reshaped to a vector `[r]`, read at `e`, is the column at `(e, 0)`. -/
theorem shapeCast_uncol_apply {r : Nat} (x : (⟨2, ![r, 1]⟩ : Shape).Idx → α)
    (h : (⟨2, ![r, 1]⟩ : Shape).ShapeCasts ⟨1, ![r]⟩) (e : Fin r) :
    shapeCast ⟨1, ![r]⟩ x h (ix1 e) = x (ix2 e 0) := by
  refine shapeCast_apply x h _ _ ?_
  rw [Shape.rowMajor_val_one, Shape.rowMajor_val_two]
  show e.val * 1 + 0 = e.val
  omega

end Reshape

/-! ## Unit-stride slices: row blocks of a matrix, a prefix of a flat array -/

section Slice
variable {α : Type}

/-- A block of `m` whole rows of a matrix `[M, C]` starting at row `o`, read at `(k, j)`, is the matrix at row `o + k`
    (given as any `i` with that value) and column `j`. -/
theorem slice_rows_apply {M m C o : Nat} (x : (⟨2, ![M, C]⟩ : Shape).Idx → α)
    (h : (⟨2, ![M, C]⟩ : Shape).Slices ![o, 0] ⟨2, ![m, C]⟩) (k : Fin m) (j : Fin C) (i : Fin M)
    (hi : i.val = o + k.val) :
    extractStridedSlice ⟨2, ![m, C]⟩ ![o, 0] x h (ix2 k j) = x (ix2 i j) := by
  refine extractStridedSlice_apply _ x h _ _ (fun a => ?_)
  match a with
  | ⟨0, _⟩ => exact hi
  | ⟨1, _⟩ => exact (Nat.zero_add j.val).symm

/-- Rows `0–63` of a `130 × 64` matrix, read at `(k, j)`: the matrix at `(k, j)`. -/
theorem slice_rows_0_apply (x : (⟨2, ![130, 64]⟩ : Shape).Idx → α)
    (h : (⟨2, ![130, 64]⟩ : Shape).Slices ![0, 0] ⟨2, ![64, 64]⟩) (k j : Fin 64) :
    extractStridedSlice ⟨2, ![64, 64]⟩ ![0, 0] x h (ix2 k j) = x (ix2 ⟨k.val, by omega⟩ j) :=
  slice_rows_apply x h k j ⟨k.val, by omega⟩ (Nat.zero_add k.val).symm

/-- Rows `64–127` of a `130 × 64` matrix, read at `(k, j)`: the matrix at `(k + 64, j)`. -/
theorem slice_rows_64_apply (x : (⟨2, ![130, 64]⟩ : Shape).Idx → α)
    (h : (⟨2, ![130, 64]⟩ : Shape).Slices ![64, 0] ⟨2, ![64, 64]⟩) (k j : Fin 64) :
    extractStridedSlice ⟨2, ![64, 64]⟩ ![64, 0] x h (ix2 k j) = x (ix2 ⟨k.val + 64, by omega⟩ j) :=
  slice_rows_apply x h k j ⟨k.val + 64, by omega⟩ (Nat.add_comm k.val 64)

/-- Row `128` of a `130 × 64` matrix as a single row, read at `(0, j)`: the matrix at `(128, j)`. -/
theorem slice_rows_128_apply (x : (⟨2, ![130, 64]⟩ : Shape).Idx → α)
    (h : (⟨2, ![130, 64]⟩ : Shape).Slices ![128, 0] ⟨2, ![1, 64]⟩) (j : Fin 64) :
    extractStridedSlice ⟨2, ![1, 64]⟩ ![128, 0] x h (ix2 0 j) = x (ix2 ⟨128, by omega⟩ j) :=
  slice_rows_apply x h 0 j ⟨128, by omega⟩ rfl

/-- Row `129` of a `130 × 64` matrix as a single row, read at `(0, j)`: the matrix at `(129, j)`. -/
theorem slice_rows_129_apply (x : (⟨2, ![130, 64]⟩ : Shape).Idx → α)
    (h : (⟨2, ![130, 64]⟩ : Shape).Slices ![129, 0] ⟨2, ![1, 64]⟩) (j : Fin 64) :
    extractStridedSlice ⟨2, ![1, 64]⟩ ![129, 0] x h (ix2 0 j) = x (ix2 ⟨129, by omega⟩ j) :=
  slice_rows_apply x h 0 j ⟨129, by omega⟩ rfl

/-- A block of `m` consecutive elements of a flat array `[M]` starting at `o`, read at `e`, is the array at `o + e`
    (given as any `i` with that value). -/
theorem slice_flat_apply {M m o : Nat} (x : (⟨1, ![M]⟩ : Shape).Idx → α)
    (h : (⟨1, ![M]⟩ : Shape).Slices ![o] ⟨1, ![m]⟩) (e : Fin m) (i : Fin M) (hi : i.val = o + e.val) :
    extractStridedSlice ⟨1, ![m]⟩ ![o] x h (ix1 e) = x (ix1 i) := by
  refine extractStridedSlice_apply _ x h _ _ (fun a => ?_)
  match a with
  | ⟨0, _⟩ => exact hi

/-- The first `800000` elements of a flat array of `1600000`, read at `e`: the array at `e`. -/
theorem slice_flat_0_apply (x : (⟨1, ![1600000]⟩ : Shape).Idx → α)
    (h : (⟨1, ![1600000]⟩ : Shape).Slices ![0] ⟨1, ![800000]⟩) (e : Fin 800000) :
    extractStridedSlice ⟨1, ![800000]⟩ ![0] x h (ix1 e) = x (ix1 ⟨e.val, by omega⟩) :=
  slice_flat_apply x h e ⟨e.val, by omega⟩ (Nat.zero_add e.val).symm

end Slice

end Cert.LibLayout
-- ==== Proof.HostArrays.lean ====
/-
  The arrays the kernel's windows stage, as the host operations before the launch leave them.

  The features are staged as given.  The summed messages are the scatter-add of the gathered feature rows; the
  degree column is the scatter-add of ones, reshaped from a vector of 50000 to a column; the two halves of the weights
  are rows 0–127 and rows 128–255 of W, their float format changed (the identity on extended reals); the bias row is b
  reshaped from a vector of 128 to a single row.  The gather and the two scatter-adds are, operation for operation, the
  ones the reference applies to the same arguments: they are named once, as the reference's own stages, and never
  opened.

  Read entry by entry the column at (n, 0) is deg(n), row k of the upper (lower) half is row k (128 + k) of W, the row
  at (0, j) is b(j): so the layer over the arranged arrays is the layer.
-/
import proofs.«113068_j14224931684660_1_alg».proof.Proof.Gen.KernelIdeal.Frame
import proofs.«113068_j14224931684660_1_alg».proof.Proof.Gen.ReferenceIdeal.Read
import proofs.«113068_j14224931684660_1_alg».proof.Proof.Spec
import proofs.«113068_j14224931684660_1_alg».proof.Proof.LibLayout

noncomputable section

namespace Cert.KernelIdeal.Arrays

open Cert.KernelIdeal Cert.KernelIdeal.Gen Idealize.ShloMosaic Idealize.ShloMosaic.TcCoe Idealize.SL.Sem
open Idealize.ShloMosaic.StableHlo Idealize.ShloMosaic.ValueIdx Cert.Sage Cert.LibLayout

variable (m : (ℓ : Loc nD τ sig) → Buf (Elt Ideal) ℓ)

/-- THE SUMMED MESSAGES: for each node the sum of the feature rows of its in-neighbours, as the host operations compute
    it from the features, the sources and the destinations. -/
def msg (c : Dev nD) : S50000x128.Idx → EReal :=
  Cert.ReferenceIdeal.Read.val_main_v9 (F := Ideal) (m ((c : Thread nD τ).loc main_arg0))
    (m ((c : Thread nD τ).loc main_arg1)) (m ((c : Thread nD τ).loc main_arg2))

/-- THE IN-DEGREES: for each node the number of edges that end in it, as the host operations compute it from the
    destinations. -/
def deg (c : Dev nD) : S50000.Idx → EReal :=
  Cert.ReferenceIdeal.Read.val_main_v13 (F := Ideal) (m ((c : Thread nD τ).loc main_arg2))

/-- The window of the summed messages stages them. -/
theorem staged_msg (c : Dev nD) : (V m c main_v9 : S50000x128.Idx → EReal) = msg m c := by
  dsimp only [Gen.V, Gen.hostOps0]
  after_results <;> rfl

/-- The window of the degrees stages them as a column. -/
theorem staged_degCol (c : Dev nD) :
    (V m c main_v14 : S50000x1.Idx → EReal) = shapeCast S50000x1 (deg m c) shapeCasts_S50000_S50000x1 := by
  dsimp only [Gen.V, Gen.hostOps0]
  after_results <;> rfl

/-- The window of the upper half of the weights stages rows 0–127 of W. -/
theorem staged_upper (c : Dev nD) :
    (V m c main_v16 : S128x128.Idx → EReal)
      = truncf (F := Ideal) .bf16 (extractStridedSlice S128x128 ![0, 0] (m ((c : Thread nD τ).loc main_arg3)) slices_S256x128_S128x128_0_0)
          bitsLt_bf16_f32 := by
  dsimp only [Gen.V, Gen.hostOps0]
  after_results <;> rfl

/-- The window of the lower half of the weights stages rows 128–255 of W. -/
theorem staged_lower (c : Dev nD) :
    (V m c main_v18 : S128x128.Idx → EReal)
      = truncf (F := Ideal) .bf16 (extractStridedSlice S128x128 ![128, 0] (m ((c : Thread nD τ).loc main_arg3)) slices_S256x128_S128x128_128_0)
          bitsLt_bf16_f32 := by
  dsimp only [Gen.V, Gen.hostOps0]
  after_results <;> rfl

/-- The window of the bias stages it as a single row. -/
theorem staged_bRow (c : Dev nD) :
    (V m c main_v19 : S1x128.Idx → EReal) = shapeCast S1x128 (m ((c : Thread nD τ).loc main_arg4)) shapeCasts_S128_S1x128 := by
  dsimp only [Gen.V, Gen.hostOps0]
  after_results <;> rfl

/-- The degree column at (n, 0) is the degree of n. -/
theorem degCol_apply (c : Dev nD) (n : Fin 50000) : (V m c main_v14 : S50000x1.Idx → EReal) (ix2 n 0) = deg m c (ix1 n) :=
  (congrFun (staged_degCol m c) (ix2 n 0)).trans (shapeCast_col_apply (deg m c) shapeCasts_S50000_S50000x1 n)

/-- Row k of the upper half is row k of W. -/
theorem upper_apply (c : Dev nD) (k j : Fin 128) :
    (V m c main_v16 : S128x128.Idx → EReal) (ix2 k j) = m ((c : Thread nD τ).loc main_arg3) (ix2 (upper k) j) :=
  (congrFun (staged_upper m c) (ix2 k j)).trans
    ((truncf_apply _ bitsLt_bf16_f32 (ix2 k j)).trans
      (slice_rows_apply (m ((c : Thread nD τ).loc main_arg3)) slices_S256x128_S128x128_0_0 k j (upper k) (Nat.zero_add k.val).symm))

/-- Row k of the lower half is row 128 + k of W. -/
theorem lower_apply (c : Dev nD) (k j : Fin 128) :
    (V m c main_v18 : S128x128.Idx → EReal) (ix2 k j) = m ((c : Thread nD τ).loc main_arg3) (ix2 (lower k) j) :=
  (congrFun (staged_lower m c) (ix2 k j)).trans
    ((truncf_apply _ bitsLt_bf16_f32 (ix2 k j)).trans
      (slice_rows_apply (m ((c : Thread nD τ).loc main_arg3)) slices_S256x128_S128x128_128_0 k j (lower k) rfl))

/-- The bias row at (0, j) is b(j). -/
theorem bRow_apply (c : Dev nD) (j : Fin 128) :
    (V m c main_v19 : S1x128.Idx → EReal) (ix2 0 j) = m ((c : Thread nD τ).loc main_arg4) (ix1 j) :=
  (congrFun (staged_bRow m c) (ix2 0 j)).trans (shapeCast_row_apply (m ((c : Thread nD τ).loc main_arg4)) shapeCasts_S128_S1x128 j)

/-- THE LAYER OVER THE STAGED ARRAYS IS THE LAYER of the features, the summed messages, the degrees, the weights and
    the bias. -/
theorem arranged (c : Dev nD) :
    layerHalves (V m c main_arg0) (V m c main_v9) (V m c main_v14) (V m c main_v16) (V m c main_v18) (V m c main_v19)
      = layer (m ((c : Thread nD τ).loc main_arg0)) (msg m c) (deg m c) (m ((c : Thread nD τ).loc main_arg3))
          (m ((c : Thread nD τ).loc main_arg4)) := by
  rw [V_main_arg0 m c, staged_msg m c]
  exact layerHalves_eq _ _ (deg m c) (m ((c : Thread nD τ).loc main_arg3)) (m ((c : Thread nD τ).loc main_arg4)) _ _ _ _
    (degCol_apply m c) (upper_apply m c) (lower_apply m c) (bRow_apply m c)

end Cert.KernelIdeal.Arrays

end
-- ==== Proof.KernelSide.lean ====
/-
  What the kernel body stores, at one entry of its 2000 × 128 block.

  The body takes a block of 2000 feature rows x, the matching rows of the summed messages s and of the degree column d,
  the two 128 × 128 halves Wu, Wl of the weights and the bias row c, and stores

      x · Wu  +  (s / max(d, 1)) · Wl  +  c        (the products are matrix products, c is added to every row).

  A change of float format is the identity on extended reals, and a product of matrices accumulated from zero is at
  entry (r, j) the plain sum Σ_k A(r,k) · B(k,j).  So entry (r, j) of the stored block is

      Σ_{k<128} x(r,k) · Wu(k,j)  +  Σ_{k<128} (s(r,k) / max(d(r,0), 1)) · Wl(k,j)  +  c(0,j).
-/
import proofs.«113068_j14224931684660_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The left operand's row coordinate at output entry i is i's row. -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The right operand's column coordinate at output entry i is i's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A BLOCK PRODUCT FROM ZERO AT AN ENTRY: Σ_k A(r,k) · B(k,j), the contracted axis re-indexed by its 128 positions. -/
theorem product_apply (A : FVec Ideal S2000x128 .bf16) (B : FVec Ideal S128x128 .bf16) (r : Fin 2000) (j : Fin 128) :
    matmul dot_S2000x128_S128x128_S2000x128_1_0_0_1_n_n none A B (constant S2000x128 .f32 0x00000000#32) (ix2 r j)
      = ∑ k : Fin 128, A (ix2 r k) * B (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r j) ((contrEquiv1 dot_S2000x128_S128x128_S2000x128_1_0_0_1_n_n 128 rfl rfl).symm k) = ix2 r k := funext fun a => Fin.ext (by
    match a with
    | ⟨0, _⟩ => exact lhs_row _ _
    | ⟨1, _⟩ => exact (dot_S2000x128_S128x128_S2000x128_1_0_0_1_n_n.lhsIdx_val_of_single rfl _ _).trans hk)
  have er : dot_S2000x128_S128x128_S2000x128_1_0_0_1_n_n.rhsIdx (ix2 r j) ((contrEquiv1 dot_S2000x128_S128x128_S2000x128_1_0_0_1_n_n 128 rfl rfl).symm k) = ix2 k j := funext fun a => Fin.ext (by
    match a with
    | ⟨0, _⟩ => exact (dot_S2000x128_S128x128_S2000x128_1_0_0_1_n_n.rhsIdx_val_of_single rfl _ _).trans hk
    | ⟨1, _⟩ => exact rhs_col _ _)
  rw [el, er]

/-- A column [2000, 1] spread along the rows of a [2000, 128] block reads, at (r, k), the column at (r, 0). -/
theorem spread_col_apply (x : S2000x1.Idx → EReal) (h : S2000x1.Broadcasts S2000x128) (r : Fin 2000) (k : Fin 128) :
    broadcastTo S2000x128 x h (ix2 r k) = x (ix2 r 0) := by
  refine broadcastTo_apply x h _ _ (fun a => ?_)
  match a with
  | ⟨0, _⟩ => show r.val = if (2000 : Nat) = 1 then 0 else r.val; rw [if_neg (by decide)]
  | ⟨1, _⟩ => show 0 = if (1 : Nat) = 1 then 0 else k.val; rw [if_pos rfl]

/-- A row [1, 128] spread down the columns of a [2000, 128] block reads, at (r, j), the row at (0, j). -/
theorem spread_row_apply (x : S1x128.Idx → EReal) (h : S1x128.Broadcasts S2000x128) (r : Fin 2000) (j : Fin 128) :
    broadcastTo S2000x128 x h (ix2 r j) = x (ix2 0 j) := by
  refine broadcastTo_apply x h _ _ (fun a => ?_)
  match a with
  | ⟨0, _⟩ => show 0 = if (1 : Nat) = 1 then 0 else r.val; rw [if_pos rfl]
  | ⟨1, _⟩ => show j.val = if (128 : Nat) = 1 then 0 else j.val; rw [if_neg (by decide)]

/-- THE STORED BLOCK AT ENTRY (r, j), from the six loaded blocks: d the degree column, s the summed messages, x the
    features, Wu and Wl the halves of the weights, c the bias row. -/
theorem stored_apply (d : Vec Ideal S2000x1 .f32) (s x : Vec Ideal S2000x128 .f32) (Wu Wl : Vec Ideal S128x128 .bf16)
    (c : Vec Ideal S1x128 .f32) (r : Fin 2000) (j : Fin 128) :
    k0_pay1 d s x Wu Wl c (ix2 r j)
      = (∑ k : Fin 128, x (ix2 r k) * Wu (ix2 k j)
          + ∑ k : Fin 128, Ideal.div (s (ix2 r k)) (max (d (ix2 r 0)) (Ideal.ofBits .f32 0x3F800000#32)) * Wl (ix2 k j))
        + c (ix2 0 j) := by
  unfold k0_pay1
  rw [addf_apply, addf_apply, product_apply, product_apply, shapeCast_self, shapeCast_self, shapeCast_self,
    shapeCast_self, shapeCast_self, spread_row_apply]
  refine congrArg₂ (· + ·) (congrArg₂ (· + ·) rfl (Finset.sum_congr rfl fun k _ => ?_)) rfl
  rw [truncf_apply, divf_apply, spread_col_apply]
  rfl

end Cert.KernelIdeal.Body

end
-- ==== Proof.Blocks.lean ====
/-
  From the blocks the kernel writes to the whole result array.

  The grid has 25 points.  At point t the kernel reads rows 2000·t … 2000·t + 1999 of the features, of the summed messages
  and of the degree column, the whole of both halves of the weights and of the bias row, and writes rows 2000·t …
  2000·t + 1999 of the result.  Entry (r, j) of the written block depends on row r of the three row blocks only, which is
  row 2000·t + r of the arrays: so the written block is that block of the layer over the staged arrays.  The 25 row blocks
  tile the 50000 rows — row n lies in block n / 2000 — so the whole result array is the layer over the staged arrays.
-/
import proofs.«113068_j14224931684660_1_alg».proof.Proof.Gen.KernelIdeal.Value
import proofs.«113068_j14224931684660_1_alg».proof.Proof.Spec
import proofs.«113068_j14224931684660_1_alg».proof.Proof.KernelSide

noncomputable section

namespace Cert.KernelIdeal.Blocks

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (m : (ℓ : Loc nD τ sig) → Buf (Elt Ideal) ℓ)

/-- The offsets of a load or store of a whole block are all zero. -/
theorem zero_offsets : (![0, 0] : Fin 2 → Nat) = fun _ => 0 := funext fun a => by fin_cases a <;> rfl

/-- WHICH BLOCK EACH WINDOW IS ON at point t, decided over the 25 points: the three row windows and the result are on
    row block t, column block 0; the weights' halves and the bias row stay on their one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- ENTRY (r, j) OF THE BLOCK WRITTEN AT POINT t, over ANY six arrays read through the windows' blocks at t, is entry
    (n, j) of the layer over those arrays, n = 2000·t + r: each block read lands on row n of its array (or on the one
    block of the weights' halves and of the bias row). -/
theorem written_entry (A0 A1 : S50000x128.Idx → EReal) (A2 : S50000x1.Idx → EReal) (A3 A4 : S128x128.Idx → EReal)
    (A5 : S1x128.Idx → EReal) (t : Fin cfg0.N) (r : Fin 2000) (j : Fin 128) (n : Fin 50000)
    (hn : n.val = t.val * 2000 + r.val) :
    k0_pay1 (((cfg0.win 2).blk t).view.read (Elt Ideal) A2) (((cfg0.win 1).blk t).view.read (Elt Ideal) A1)
        (((cfg0.win 0).blk t).view.read (Elt Ideal) A0) (((cfg0.win 3).blk t).view.read (Elt Ideal) A3)
        (((cfg0.win 4).blk t).view.read (Elt Ideal) A4) (((cfg0.win 5).blk t).view.read (Elt Ideal) A5) (ix2 r j)
      = layerHalves A0 A1 A2 A3 A4 A5 (ix2 n j) := by
  obtain ⟨e00, e01, e10, e11, e20, e21, e30, e31, e40, e41, e50, e51, e60, e61⟩ := block_indices t
  refine (Body.stored_apply (((cfg0.win 2).blk t).view.read (Elt Ideal) A2) (((cfg0.win 1).blk t).view.read (Elt Ideal) A1)
    (((cfg0.win 0).blk t).view.read (Elt Ideal) A0) (((cfg0.win 3).blk t).view.read (Elt Ideal) A3)
    (((cfg0.win 4).blk t).view.read (Elt Ideal) A4) (((cfg0.win 5).blk t).view.read (Elt Ideal) A5) r j).trans ?_
  show _ = entryHalves A0 A1 A2 A3 A4 A5 n j
  unfold entryHalves
  have r0 : ∀ k : Fin 128, (((cfg0.win 0).blk t).view.read (Elt Ideal) A0) (ix2 r k) = A0 (ix2 n k) := fun k => by
    show A0 (((cfg0.win 0).blk t).view.emb (ix2 r k)) = A0 (ix2 n k)
    refine congrArg A0 (funext fun a => Fin.ext ?_)
    match a with
    | ⟨0, _⟩ => show win0_0.index t (0 : Fin 2) * 2000 + 1 * r.val = n.val; omega
    | ⟨1, _⟩ => show win0_0.index t (1 : Fin 2) * 128 + 1 * k.val = k.val; omega
  have r1 : ∀ k : Fin 128, (((cfg0.win 1).blk t).view.read (Elt Ideal) A1) (ix2 r k) = A1 (ix2 n k) := fun k => by
    show A1 (((cfg0.win 1).blk t).view.emb (ix2 r k)) = A1 (ix2 n k)
    refine congrArg A1 (funext fun a => Fin.ext ?_)
    match a with
    | ⟨0, _⟩ => show win0_1.index t (0 : Fin 2) * 2000 + 1 * r.val = n.val; omega
    | ⟨1, _⟩ => show win0_1.index t (1 : Fin 2) * 128 + 1 * k.val = k.val; omega
  have r2 : (((cfg0.win 2).blk t).view.read (Elt Ideal) A2) (ix2 r 0) = A2 (ix2 n 0) := by
    show A2 (((cfg0.win 2).blk t).view.emb (ix2 r 0)) = A2 (ix2 n 0)
    refine congrArg A2 (funext fun a => Fin.ext ?_)
    match a with
    | ⟨0, _⟩ => show win0_2.index t (0 : Fin 2) * 2000 + 1 * r.val = n.val; omega
    | ⟨1, _⟩ => show win0_2.index t (1 : Fin 2) * 1 + 1 * 0 = 0; omega
  have r3 : ∀ k : Fin 128, (((cfg0.win 3).blk t).view.read (Elt Ideal) A3) (ix2 k j) = A3 (ix2 k j) := fun k => by
    show A3 (((cfg0.win 3).blk t).view.emb (ix2 k j)) = A3 (ix2 k j)
    refine congrArg A3 (funext fun a => Fin.ext ?_)
    match a with
    | ⟨0, _⟩ => show win0_3.index t (0 : Fin 2) * 128 + 1 * k.val = k.val; omega
    | ⟨1, _⟩ => show win0_3.index t (1 : Fin 2) * 128 + 1 * j.val = j.val; omega
  have r4 : ∀ k : Fin 128, (((cfg0.win 4).blk t).view.read (Elt Ideal) A4) (ix2 k j) = A4 (ix2 k j) := fun k => by
    show A4 (((cfg0.win 4).blk t).view.emb (ix2 k j)) = A4 (ix2 k j)
    refine congrArg A4 (funext fun a => Fin.ext ?_)
    match a with
    | ⟨0, _⟩ => show win0_4.index t (0 : Fin 2) * 128 + 1 * k.val = k.val; omega
    | ⟨1, _⟩ => show win0_4.index t (1 : Fin 2) * 128 + 1 * j.val = j.val; omega
  have r5 : (((cfg0.win 5).blk t).view.read (Elt Ideal) A5) (ix2 0 j) = A5 (ix2 0 j) := by
    show A5 (((cfg0.win 5).blk t).view.emb (ix2 0 j)) = A5 (ix2 0 j)
    refine congrArg A5 (funext fun a => Fin.ext ?_)
    match a with
    | ⟨0, _⟩ => show win0_5.index t (0 : Fin 2) * 1 + 1 * 0 = 0; omega
    | ⟨1, _⟩ => show win0_5.index t (1 : Fin 2) * 128 + 1 * j.val = j.val; omega
  rw [r2, r5]
  simp only [r0, r1, r3, r4]

/-- WHAT POINT t WRITES BACK is block t of the layer over the staged arrays. -/
theorem written_block (c : Dev nD) (t : Fin cfg0.N) :
    (dats m 0 c).flushed 6 t = ((cfg0.win 6).blk t).view.read (Elt Ideal)
      (layerHalves (V m c main_arg0) (V m c main_v9) (V m c main_v14) (V m c main_v16) (V m c main_v18) (V m c main_v19)) := by
  show (cfg0.win 6).cut (grid0.coords t) ((dats m 0 c).after 6 t) = _
  rw [after0_6]
  unfold out0_6
  rw [View.canon_unit_zero zero_offsets]
  simp only [View.ld_unit_zero (S := S2000x1) zero_offsets, View.ld_unit_zero (S := S2000x128) zero_offsets,
    View.ld_unit_zero (S := S128x128) zero_offsets, View.ld_unit_zero (S := S1x128) zero_offsets]
  funext y
  obtain ⟨r, j, rfl⟩ : ∃ (r : Fin 2000) (j : Fin 128), y = ix2 r j := ⟨y 0, y 1, eq_ix2 y⟩
  have hN : cfg0.N = 25 := N_0
  have ht : t.val < 25 := hN ▸ t.isLt
  obtain ⟨e00, e01, e10, e11, e20, e21, e30, e31, e40, e41, e50, e51, e60, e61⟩ := block_indices t
  have hemb : ((cfg0.win 6).blk t).view.emb (ix2 r j) = ix2 (⟨t.val * 2000 + r.val, by omega⟩ : Fin 50000) j :=
    funext fun a => Fin.ext (by
      match a with
      | ⟨0, _⟩ => show win0_6.index t (0 : Fin 2) * 2000 + 1 * r.val = t.val * 2000 + r.val; omega
      | ⟨1, _⟩ => show win0_6.index t (1 : Fin 2) * 128 + 1 * j.val = j.val; omega)
  show k0_pay1 (iblk m c 2 t) (iblk m c 1 t) (iblk m c 0 t) (iblk m c 3 t) (iblk m c 4 t) (iblk m c 5 t) (ix2 r j)
    = layerHalves (V m c main_arg0) (V m c main_v9) (V m c main_v14) (V m c main_v16) (V m c main_v18) (V m c main_v19)
        (((cfg0.win 6).blk t).view.emb (ix2 r j))
  rw [hemb]
  exact written_entry (V m c main_arg0) (V m c main_v9) (V m c main_v14) (V m c main_v16) (V m c main_v18) (V m c main_v19) t r j
    ⟨t.val * 2000 + r.val, by omega⟩ rfl

/-- An index of the result array is in point t's block iff each coordinate is in the block's range on its axis. -/
theorem mem_block (t : Fin cfg0.N) (i : S50000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v20).slice (win0_6.rect t)).set ↔ _
  rw [View.set_slice_whole, Rect.mem_set_unit]
  exact Iff.rfl

/-- THE BLOCKS TILE THE ARRAY: row n lies in the block of point n / 2000. -/
theorem covered (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨e00, e01, e10, e11, e20, e21, e30, e31, e40, e41, e50, e51, e60, e61⟩ := block_indices t
  refine ⟨t, flush0_6 t, ?_⟩
  rw [mem_block]
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 128 ≤ (i 1).val ∧ (i 1).val < win0_6.index t (1 : Fin 2) * 128 + 128
    omega

/-- THE RESULT ARRAY after the run is the layer over the staged arrays. -/
theorem result_array (c : Dev nD) :
    (dats m 0 c).arrAt 6 cfg0.N
      = layerHalves (V m c main_arg0) (V m c main_v9) (V m c main_v14) (V m c main_v16) (V m c main_v18) (V m c main_v19) :=
  (dats m 0 c).arrAt_eq_of_cover 6 _ (fun t _ => written_block m c t) covered

end Cert.KernelIdeal.Blocks

end
-- ==== Proof.lean ====
/-
  One layer of neighbourhood averaging and a linear map (GraphSAGE's mean aggregator): the kernel and the reference
  compute the same array over the extended reals.

  Both programs first form, on the host and by the same operations, the summed messages msg (for each node the sum of
  the feature rows of its in-neighbours: a gather of rows by the sources, scatter-added by the destinations) and the
  in-degrees deg (ones scatter-added by the destinations).  The result at node n and column j is

      Σ_{k<128} feat(n,k) · W(k,j)  +  Σ_{k<128} (msg(n,k) / max(deg(n), 1)) · W(128+k, j)  +  b(j).

  The reference reaches it by joining feat and h = msg / max(deg, 1) into rows of 256 and contracting them against the
  256 rows of W in one product (Proof/RefSide.lean).  The kernel cuts W into its upper and lower 128 rows, walks the
  50000 nodes in 25 blocks of 2000 rows, and in each block adds the two products x · Wu and (s / max(d, 1)) · Wl and the
  bias row (Proof/KernelSide.lean: one entry of a block; Proof/Blocks.lean: the blocks tile the array; Proof/HostArrays.lean:
  what the staged arrays are).  A change of float format is the identity on extended reals, and a product accumulated
  from zero is a plain sum, so the two differ only in how one sum over 256 positions is grouped: as the sum over the
  first 128 positions plus the sum over the last 128 (Proof/Spec.lean).  That regrouping holds for any commutative
  addition, infinite summands included, so the inputs' finiteness is never used.

  The three frames are the generated ones (the reference's is its generated run with the result dropped); the
  idealization rewrote no operation, so there is nothing to preserve.
-/
import proofs.«113068_j14224931684660_1_alg».proof.Defs
import proofs.«113068_j14224931684660_1_alg».proof.Proof.Gen.Kernel
import proofs.«113068_j14224931684660_1_alg».proof.Proof.Gen.Kernel.Frame
import proofs.«113068_j14224931684660_1_alg».proof.Proof.Gen.KernelIdeal
import proofs.«113068_j14224931684660_1_alg».proof.Proof.Gen.KernelIdeal.Frame
import proofs.«113068_j14224931684660_1_alg».proof.Proof.Gen.KernelIdeal.Value
import proofs.«113068_j14224931684660_1_alg».proof.Proof.Gen.ReferenceIdeal
import proofs.«113068_j14224931684660_1_alg».proof.Proof.Gen.ReferenceIdeal.Run
import proofs.«113068_j14224931684660_1_alg».proof.Proof.Gen.ReferenceIdeal.Read
import proofs.«113068_j14224931684660_1_alg».proof.Proof.Gen.Pre_finite_inputs
import proofs.«113068_j14224931684660_1_alg».proof.Proof.RefSide
import proofs.«113068_j14224931684660_1_alg».proof.Proof.HostArrays
import proofs.«113068_j14224931684660_1_alg».proof.Proof.Blocks
import Idealize.ShloMosaic.Adequacy
import Idealize.ShloMosaic.Init

noncomputable section

namespace Cert.Proof

open Idealize.ShloMosaic Idealize.ShloMosaic.TcCoe Idealize.SL.Sem Cert.Sage

/-- The kernel as printed runs to completion and leaves its arguments as they were. -/
theorem frame_kernel : Cert.frame_Kernel := fun m ρ _ => Cert.Kernel.Gen.frame m ρ

/-- So does the idealized kernel. -/
theorem frame_ideal : Cert.frame_KernelIdeal := fun m ρ _ => Cert.KernelIdeal.Gen.frame m ρ

/-- So does the idealized reference: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

section
open Cert.KernelIdeal

/-- THE IDEALIZED KERNEL'S RUN: every execution ends with the result array at the layer of the features, the summed
    messages, the in-degrees, the weights and the bias, the arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v20)
          = layer (m ((c : Thread nD τ).loc main_arg0)) (Arrays.msg m c) (Arrays.deg m c)
              (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono
    (fun r h c => ⟨(h c).1.trans ((Blocks.result_array m c).trans (Arrays.arranged m c)), (h c).2⟩)
    (Value.run_blocks m ρ)

end

/-- THE TWO IDEALIZED PROGRAMS AGREE: from memories that agree on the arguments both end at the layer of those
    arguments — the kernel by its run above, the reference because its last stage is the layer (the one-sum
    arrangement) of the messages and degrees that the same host operations compute. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq, (hagree c).1, (hagree c).2.1,
    (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
